-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S2x1280000 : Shape := ⟨2, ![2, 1280000]⟩
abbrev S64x64 : Shape := ⟨2, ![64, 64]⟩
abbrev S64 : Shape := ⟨1, ![64]⟩
abbrev S_ : Shape := ⟨0, ![]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S80000x64 .f32) (main_arg1 : IVec S2x1280000 32) (main_arg2 : FVec F S64x64 .f32) (main_arg3 : FVec F S64 .f32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S80000x64 : Shape := ⟨2, ![80000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S8000x64 : Shape := ⟨2, ![8000, 64]⟩
abbrev S1360000x64 : Shape := ⟨2, ![1360000, 64]⟩
abbrev S1x64 : Shape := ⟨2, ![1, 64]⟩
abbrev S1280000x1 : Shape := ⟨2, ![1280000, 1]⟩
abbrev S1280000x64 : Shape := ⟨2, ![1280000, 64]⟩

abbrev nBuf : Space → Nat
  | .hbm => 97
  | .vmem => 5
  | .smem => 0
  | _ => 0

abbrev bufTy : (tb : Table) → Fin (tcTables nBuf tb) → BufTy
  | .hbm, ⟨0, _⟩ => ⟨S80000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S1x1280000, .i32⟩
  | .hbm, ⟨5, _⟩ => ⟨S1280000, .i32⟩
  | .hbm, ⟨6, _⟩ => ⟨S1x1280000, .i32⟩
  | .hbm, ⟨7, _⟩ => ⟨S1280000, .i32⟩
  | .hbm, ⟨8, _⟩ => ⟨S80000, .i32⟩
  | .hbm, ⟨9, _⟩ => ⟨S1360000, .i32⟩
  | .hbm, ⟨10, _⟩ => ⟨S1360000, .i32⟩
  | .hbm, ⟨11, _⟩ => ⟨S_, .f32⟩
  | .hbm, ⟨12, _⟩ => ⟨S1360000, .f32⟩
  | .hbm, ⟨13, _⟩ => ⟨S_, .f32⟩
  | .hbm, ⟨14, _⟩ => ⟨S80000, .f32⟩
  | .hbm, ⟨15, _⟩ => ⟨S1360000x1, .i32⟩
  | .hbm, ⟨16, _⟩ => ⟨S80000, .f32⟩
  | .hbm, ⟨17, _⟩ => ⟨S80000, .f32⟩
  | .hbm, ⟨18, _⟩ => ⟨S_, .i32⟩
  | .hbm, ⟨19, _⟩ => ⟨S1360000, .i32⟩
  | .hbm, ⟨20, _⟩ => ⟨S1360000, .i1⟩
  | .hbm, ⟨21, _⟩ => ⟨S_, .i32⟩
  | .hbm, ⟨22, _⟩ => ⟨S1360000, .i32⟩
  | .hbm, ⟨23, _⟩ => ⟨S1360000, .i32⟩
  | .hbm, ⟨24, _⟩ => ⟨S1360000, .i32⟩
  | .hbm, ⟨25, _⟩ => ⟨S1360000x1, .i32⟩
  | .hbm, ⟨26, _⟩ => ⟨S1360000, .f32⟩
  | .hbm, ⟨27, _⟩ => ⟨S_, .i32⟩
  | .hbm, ⟨28, _⟩ => ⟨S1360000, .i32⟩
  | .hbm, ⟨29, _⟩ => ⟨S1360000, .i1⟩
  | .hbm, ⟨30, _⟩ => ⟨S_, .i32⟩
  | .hbm, ⟨31, _⟩ => ⟨S1360000, .i32⟩
  | .hbm, ⟨32, _⟩ => ⟨S1360000, .i32⟩
  | .hbm, ⟨33, _⟩ => ⟨S1360000, .i32⟩
  | .hbm, ⟨34, _⟩ => ⟨S1360000x1, .i32⟩
  | .hbm, ⟨35, _⟩ => ⟨S1360000, .f32⟩
  | .hbm, ⟨36, _⟩ => ⟨S1360000, .f32⟩
  | .hbm, ⟨37, _⟩ => ⟨S80000x64, .f32⟩
  | .hbm, ⟨38, _⟩ => ⟨S_, .i32⟩
  | .hbm, ⟨39, _⟩ => ⟨S1360000, .i32⟩
  | .hbm, ⟨40, _⟩ => ⟨S1360000, .i1⟩
  | .hbm, ⟨41, _⟩ => ⟨S_, .i32⟩
  | .hbm, ⟨42, _⟩ => ⟨S1360000, .i32⟩
  | .hbm, ⟨43, _⟩ => ⟨S1360000, .i32⟩
  | .hbm, ⟨44, _⟩ => ⟨S1360000, .i32⟩
  | .hbm, ⟨45, _⟩ => ⟨S1360000x1, .i32⟩
  | .hbm, ⟨46, _⟩ => ⟨S1360000x64, .f32⟩
  | .hbm, ⟨47, _⟩ => ⟨S1360000x1, .f32⟩
  | .hbm, ⟨48, _⟩ => ⟨S1360000x64, .f32⟩
  | .hbm, ⟨49, _⟩ => ⟨S1360000x64, .f32⟩
  | .hbm, ⟨50, _⟩ => ⟨S_, .f32⟩
  | .hbm, ⟨51, _⟩ => ⟨S80000x64, .f32⟩
  | .hbm, ⟨52, _⟩ => ⟨S1360000x1, .i32⟩
  | .hbm, ⟨53, _⟩ => ⟨S80000x64, .f32⟩
  | .hbm, ⟨54, _⟩ => ⟨S1x64, .f32⟩
  | .hbm, ⟨55, _⟩ => ⟨S80000x64, .f32⟩
  | .hbm, ⟨56, _⟩ => ⟨S80000x64, .f32⟩
  | .hbm, ⟨57, _⟩ => ⟨S_, .f32⟩
  | .hbm, ⟨58, _⟩ => ⟨S80000x64, .f32⟩
  | .hbm, ⟨59, _⟩ => ⟨S80000x64, .f32⟩
  | .hbm, ⟨60, _⟩ => ⟨S_, .i32⟩
  | .hbm, ⟨61, _⟩ => ⟨S1280000, .i32⟩
  | .hbm, ⟨62, _⟩ => ⟨S1280000, .i1⟩
  | .hbm, ⟨63, _⟩ => ⟨S_, .i32⟩
  | .hbm, ⟨64, _⟩ => ⟨S1280000, .i32⟩
  | .hbm, ⟨65, _⟩ => ⟨S1280000, .i32⟩
  | .hbm, ⟨66, _⟩ => ⟨S1280000, .i32⟩
  | .hbm, ⟨67, _⟩ => ⟨S1280000x1, .i32⟩
  | .hbm, ⟨68, _⟩ => ⟨S1280000x64, .f32⟩
  | .hbm, ⟨69, _⟩ => ⟨S_, .i32⟩
  | .hbm, ⟨70, _⟩ => ⟨S1280000, .i32⟩
  | .hbm, ⟨71, _⟩ => ⟨S1280000, .i1⟩
  | .hbm, ⟨72, _⟩ => ⟨S_, .i32⟩
  | .hbm, ⟨73, _⟩ => ⟨S1280000, .i32⟩
  | .hbm, ⟨74, _⟩ => ⟨S1280000, .i32⟩
  | .hbm, ⟨75, _⟩ => ⟨S1280000, .i32⟩
  | .hbm, ⟨76, _⟩ => ⟨S1280000x1, .i32⟩
  | .hbm, ⟨77, _⟩ => ⟨S1280000x64, .f32⟩
  | .hbm, ⟨78, _⟩ => ⟨S1280000x64, .f32⟩
  | .hbm, ⟨79, _⟩ => ⟨S1280000x64, .f32⟩
  | .hbm, ⟨80, _⟩ => ⟨S_, .f32⟩
  | .hbm, ⟨81, _⟩ => ⟨S1280000, .f32⟩
  | .hbm, ⟨82, _⟩ => ⟨S_, .f32⟩
  | .hbm, ⟨83, _⟩ => ⟨S1280000, .f32⟩
  | .hbm, ⟨84, _⟩ => ⟨S_, .f32⟩
  | .hbm, ⟨85, _⟩ => ⟨S80000, .f32⟩
  | .hbm, ⟨86, _⟩ => ⟨S1280000x1, .i32⟩
  | .hbm, ⟨87, _⟩ => ⟨S80000, .f32⟩
  | .hbm, ⟨88, _⟩ => ⟨S_, .f32⟩
  | .hbm, ⟨89, _⟩ => ⟨S80000, .f32⟩
  | .hbm, ⟨90, _⟩ => ⟨S1280000x1, .i32⟩
  | .hbm, ⟨91, _⟩ => ⟨S80000, .f32⟩
  | .hbm, ⟨92, _⟩ => ⟨S_, .f32⟩
  | .hbm, ⟨93, _⟩ => ⟨S80000, .f32⟩
  | .hbm, ⟨94, _⟩ => ⟨S80000, .f32⟩
  | .hbm, ⟨95, _⟩ => ⟨S80000, .f32⟩
  | .hbm, ⟨96, _⟩ => ⟨S80000, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .f32⟩
  | .local _ .vmem, ⟨4, _⟩ => ⟨S8000x64, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  reducesTo_S1280000x64_S1280000_d1 : S1280000x64.ReducesTo [1] S1280000
  h_S_ : 0 < S_.numel
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S8000x64_S64x64_S8000x64_1_0_0_1_n_n_wf : DotDims.WF S8000x64 S64x64 S8000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  gather_S80000x64_S1280000x1_S1280000x64_1_0_n_n_0_1_164_wf : GatherDims.WF S80000x64 S1280000x1 S1280000x64 [1] [0] [] [0] [] 1 ![1, 64]
  scatter_S80000_S1280000x1_S1280000_n_0_0_1_wf : ScatterDims.WF S80000 S1280000x1 S1280000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S80000x64.size a
  hwx0_2 : ∀ i : grid0.Coords, EltTy.bits .f32 = 32 ∨ (Rect.block (s := S80000x64) S8000x64.size (cc0_transform_2 i) (hinb0_2 i)).WholeWords (EltTy.packing .f32)

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S80000x64 : Shape := ⟨2, ![80000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S1360000x64 : Shape := ⟨2, ![1360000, 64]⟩
abbrev S1x64 : Shape := ⟨2, ![1, 64]⟩
abbrev S1280000x1 : Shape := ⟨2, ![1280000, 1]⟩
abbrev S1280000x64 : Shape := ⟨2, ![1280000, 64]⟩

abbrev nBuf : Space → Nat
  | .hbm => 100
  | .vmem => 0
  | .smem => 0
  | _ => 0

abbrev bufTy : (tb : Table) → Fin (tcTables nBuf tb) → BufTy
  | .hbm, ⟨0, _⟩ => ⟨S80000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S1x1280000, .i32⟩
  | .hbm, ⟨5, _⟩ => ⟨S1280000, .i32⟩
  | .hbm, ⟨6, _⟩ => ⟨S1x1280000, .i32⟩
  | .hbm, ⟨7, _⟩ => ⟨S1280000, .i32⟩
  | .hbm, ⟨8, _⟩ => ⟨S80000, .i32⟩
  | .hbm, ⟨9, _⟩ => ⟨S1360000, .i32⟩
  | .hbm, ⟨10, _⟩ => ⟨S1360000, .i32⟩
  | .hbm, ⟨11, _⟩ => ⟨S_, .f32⟩
  | .hbm, ⟨12, _⟩ => ⟨S1360000, .f32⟩
  | .hbm, ⟨13, _⟩ => ⟨S_, .f32⟩
  | .hbm, ⟨14, _⟩ => ⟨S80000, .f32⟩
  | .hbm, ⟨15, _⟩ => ⟨S1360000x1, .i32⟩
  | .hbm, ⟨16, _⟩ => ⟨S80000, .f32⟩
  | .hbm, ⟨17, _⟩ => ⟨S80000, .f32⟩
  | .hbm, ⟨18, _⟩ => ⟨S_, .i32⟩
  | .hbm, ⟨19, _⟩ => ⟨S1360000, .i32⟩
  | .hbm, ⟨20, _⟩ => ⟨S1360000, .i1⟩
  | .hbm, ⟨21, _⟩ => ⟨S_, .i32⟩
  | .hbm, ⟨22, _⟩ => ⟨S1360000, .i32⟩
  | .hbm, ⟨23, _⟩ => ⟨S1360000, .i32⟩
  | .hbm, ⟨24, _⟩ => ⟨S1360000, .i32⟩
  | .hbm, ⟨25, _⟩ => ⟨S1360000x1, .i32⟩
  | .hbm, ⟨26, _⟩ => ⟨S1360000, .f32⟩
  | .hbm, ⟨27, _⟩ => ⟨S_, .i32⟩
  | .hbm, ⟨28, _⟩ => ⟨S1360000, .i32⟩
  | .hbm, ⟨29, _⟩ => ⟨S1360000, .i1⟩
  | .hbm, ⟨30, _⟩ => ⟨S_, .i32⟩
  | .hbm, ⟨31, _⟩ => ⟨S1360000, .i32⟩
  | .hbm, ⟨32, _⟩ => ⟨S1360000, .i32⟩
  | .hbm, ⟨33, _⟩ => ⟨S1360000, .i32⟩
  | .hbm, ⟨34, _⟩ => ⟨S1360000x1, .i32⟩
  | .hbm, ⟨35, _⟩ => ⟨S1360000, .f32⟩
  | .hbm, ⟨36, _⟩ => ⟨S1360000, .f32⟩
  | .hbm, ⟨37, _⟩ => ⟨S80000x64, .f32⟩
  | .hbm, ⟨38, _⟩ => ⟨S_, .i32⟩
  | .hbm, ⟨39, _⟩ => ⟨S1360000, .i32⟩
  | .hbm, ⟨40, _⟩ => ⟨S1360000, .i1⟩
  | .hbm, ⟨41, _⟩ => ⟨S_, .i32⟩
  | .hbm, ⟨42, _⟩ => ⟨S1360000, .i32⟩
  | .hbm, ⟨43, _⟩ => ⟨S1360000, .i32⟩
  | .hbm, ⟨44, _⟩ => ⟨S1360000, .i32⟩
  | .hbm, ⟨45, _⟩ => ⟨S1360000x1, .i32⟩
  | .hbm, ⟨46, _⟩ => ⟨S1360000x64, .f32⟩
  | .hbm, ⟨47, _⟩ => ⟨S1360000x1, .f32⟩
  | .hbm, ⟨48, _⟩ => ⟨S1360000x64, .f32⟩
  | .hbm, ⟨49, _⟩ => ⟨S1360000x64, .f32⟩
  | .hbm, ⟨50, _⟩ => ⟨S_, .f32⟩
  | .hbm, ⟨51, _⟩ => ⟨S80000x64, .f32⟩
  | .hbm, ⟨52, _⟩ => ⟨S1360000x1, .i32⟩
  | .hbm, ⟨53, _⟩ => ⟨S80000x64, .f32⟩
  | .hbm, ⟨54, _⟩ => ⟨S1x64, .f32⟩
  | .hbm, ⟨55, _⟩ => ⟨S80000x64, .f32⟩
  | .hbm, ⟨56, _⟩ => ⟨S80000x64, .f32⟩
  | .hbm, ⟨57, _⟩ => ⟨S_, .f32⟩
  | .hbm, ⟨58, _⟩ => ⟨S80000x64, .f32⟩
  | .hbm, ⟨59, _⟩ => ⟨S80000x64, .f32⟩
  | .hbm, ⟨60, _⟩ => ⟨S_, .i32⟩
  | .hbm, ⟨61, _⟩ => ⟨S1280000, .i32⟩
  | .hbm, ⟨62, _⟩ => ⟨S1280000, .i1⟩
  | .hbm, ⟨63, _⟩ => ⟨S_, .i32⟩
  | .hbm, ⟨64, _⟩ => ⟨S1280000, .i32⟩
  | .hbm, ⟨65, _⟩ => ⟨S1280000, .i32⟩
  | .hbm, ⟨66, _⟩ => ⟨S1280000, .i32⟩
  | .hbm, ⟨67, _⟩ => ⟨S1280000x1, .i32⟩
  | .hbm, ⟨68, _⟩ => ⟨S1280000x64, .f32⟩
  | .hbm, ⟨69, _⟩ => ⟨S_, .i32⟩
  | .hbm, ⟨70, _⟩ => ⟨S1280000, .i32⟩
  | .hbm, ⟨71, _⟩ => ⟨S1280000, .i1⟩
  | .hbm, ⟨72, _⟩ => ⟨S_, .i32⟩
  | .hbm, ⟨73, _⟩ => ⟨S1280000, .i32⟩
  | .hbm, ⟨74, _⟩ => ⟨S1280000, .i32⟩
  | .hbm, ⟨75, _⟩ => ⟨S1280000, .i32⟩
  | .hbm, ⟨76, _⟩ => ⟨S1280000x1, .i32⟩
  | .hbm, ⟨77, _⟩ => ⟨S1280000x64, .f32⟩
  | .hbm, ⟨78, _⟩ => ⟨S1280000x64, .f32⟩
  | .hbm, ⟨79, _⟩ => ⟨S1280000x64, .f32⟩
  | .hbm, ⟨80, _⟩ => ⟨S_, .f32⟩
  | .hbm, ⟨81, _⟩ => ⟨S1280000x64, .f32⟩
  | .hbm, ⟨82, _⟩ => ⟨S1280000x64, .f32⟩
  | .hbm, ⟨83, _⟩ => ⟨S_, .f32⟩
  | .hbm, ⟨84, _⟩ => ⟨S1280000, .f32⟩
  | .hbm, ⟨85, _⟩ => ⟨S_, .f32⟩
  | .hbm, ⟨86, _⟩ => ⟨S1280000, .f32⟩
  | .hbm, ⟨87, _⟩ => ⟨S_, .f32⟩
  | .hbm, ⟨88, _⟩ => ⟨S80000, .f32⟩
  | .hbm, ⟨89, _⟩ => ⟨S1280000x1, .i32⟩
  | .hbm, ⟨90, _⟩ => ⟨S80000, .f32⟩
  | .hbm, ⟨91, _⟩ => ⟨S_, .f32⟩
  | .hbm, ⟨92, _⟩ => ⟨S80000, .f32⟩
  | .hbm, ⟨93, _⟩ => ⟨S1280000x1, .i32⟩
  | .hbm, ⟨94, _⟩ => ⟨S80000, .f32⟩
  | .hbm, ⟨95, _⟩ => ⟨S_, .f32⟩
  | .hbm, ⟨96, _⟩ => ⟨S80000, .f32⟩
  | .hbm, ⟨97, _⟩ => ⟨S80000, .f32⟩
  | .hbm, ⟨98, _⟩ => ⟨S80000, .f32⟩
  | .hbm, ⟨99, _⟩ => ⟨S80000, .f32⟩
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x64 : S_.BroadcastsInDim S1280000x64 (![] : Fin 0 → Fin S1280000x64.rank)
  reducesTo_S1280000x64_S1280000_d1 : S1280000x64.ReducesTo [1] S1280000
  h_S_ : 0 < S_.numel
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S80000x64_S64x64_S80000x64_1_0_0_1_n_n_wf : DotDims.WF S80000x64 S64x64 S80000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  gather_S80000x64_S1280000x1_S1280000x64_1_0_n_n_0_1_164_wf : GatherDims.WF S80000x64 S1280000x1 S1280000x64 [1] [0] [] [0] [] 1 ![1, 64]
  scatter_S80000_S1280000x1_S1280000_n_0_0_1_wf : ScatterDims.WF S80000 S1280000x1 S1280000 [] [0] [0] 1

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf

class Facts : Prop extends Facts₀ where

variable [Facts]
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«181222_j51539607552123_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«181222_j51539607552123_2_alg».proof.Proof.LibPlainDot
import proofs.«181222_j51539607552123_2_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.Product.lean ====
/-
  What the kernel's one region leaves in its result array: the matrix product of the whole argument arrays.

  The region walks a grid of ten points.  At point t it stages rows 8000·t … 8000·t + 7999 of X (a block of 8000 × 64), the
  whole of W (64 × 64, the same block at every point), computes the block's product with W into a zero accumulator — the
  change of float format in front of the product is the identity on the extended reals — and writes the 8000 × 64 result
  back as rows 8000·t … 8000·t + 7999 of the result array.
  Entry (p, j) of a product reads row p of its left factor only, so the block's entry (p, j) is entry (8000·t + p, j) of
  the product X · W of the WHOLE arrays: every point writes back a block of one and the same array function.  The ten
  blocks tile the 80000 rows (row r lies in block r / 8000), so after the run the result array IS X · W.
-/
import proofs.«181222_j51539607552123_2_alg».proof.Proof.KernelIdealFrameP
import proofs.«181222_j51539607552123_2_alg».proof.Proof.LibGcn
import Idealize.ShloMosaic.Lib.Pipeline.Value
import Idealize.ShloMosaic.Lib.ValueIdx

set_option maxRecDepth 16384

noncomputable section

open scoped BigOperators

namespace Cert.KernelIdeal.Product

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ)

/-- The zero offsets of the body's whole-block rectangles. -/
theorem origin : (![0, 0] : Fin 2 → Nat) = fun _ => 0 := funext fun a => by fin_cases a <;> rfl

/-- The body's stored value is the product of its two loaded blocks. -/
theorem body_eq (x : Vec Ideal S8000x64 .f32) (w : Vec Ideal S64x64 .f32) : k0_pay1 x w = mm x w := by
  unfold k0_pay1
  exact Cert.LibGcn.matmul_zero_eq_mm dot_S8000x64_S64x64_S8000x64_1_0_0_1_n_n rfl none
    (truncf .bf16 x bitsLt_bf16_f32) (truncf .bf16 w bitsLt_bf16_f32)

/-- Rows 8000·k … of a product: a block of 8000 rows of X times W is the same rows of X · W. -/
theorem block_rows (X : Mat 80000 64) (W : Mat 64 64) (xb : Mat 8000 64) (wb : Mat 64 64) (k : ℕ) (hk : k < 10)
    (hx : ∀ (p : Fin 8000) (s : Fin 64), xb (ix2 p s) = X (ix2 (⟨8000 * k + p.val, by omega⟩ : Fin 80000) s))
    (hw : wb = W) (p : Fin 8000) (q : Fin 64) :
    mm xb wb (ix2 p q) = mm X W (ix2 (⟨8000 * k + p.val, by omega⟩ : Fin 80000) q) := by
  subst hw
  exact Cert.LibGcn.mm_rows xb X wb p _ q (hx p)

/-- The printed index maps over the grid: the row blocks of X and of the result sit at block (t, 0), W's at (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of X · W, X and W the argument arrays as the region finds them. -/
theorem flushed_eq (c : Dev nD) (t : Fin cfg0.N) :
    (dats m 0 c).flushed 2 t
      = ((cfg0.win 2).blk t).view.read (Elt Ideal) (mm (V m c main_arg0) (V m c main_arg2)) := by
  show (cfg0.win 2).cut (grid0.coords t) ((dats m 0 c).after 2 t) = _
  rw [after0_2]
  unfold out0_2
  rw [View.canon_unit_zero origin]
  simp only [View.ld_unit_zero (S := S8000x64) origin, View.ld_unit_zero (S := S64x64) origin]
  rw [body_eq]
  obtain ⟨e0, e1, e2, e3, e4, e5⟩ := index_facts t
  have ht : t.val < 10 := t.isLt.trans_eq N_0
  funext j
  obtain ⟨p, q, rfl⟩ : ∃ (p : Fin 8000) (q : Fin 64), j = ix2 p q := ⟨j 0, j 1, eq_ix2 j⟩
  show mm (iblk m c 0 t) (iblk m c 1 t) (ix2 p q)
    = mm (V m c main_arg0) (V m c main_arg2) (((cfg0.win 2).blk t).view.emb (ix2 p q))
  have hemb : ((cfg0.win 2).blk t).view.emb (ix2 p q) = ix2 (⟨8000 * t.val + p.val, by omega⟩ : Fin 80000) q := by
    funext a; apply Fin.ext
    match a with
    | ⟨0, _⟩ => show win0_2.index t (0 : Fin 2) * 8000 + 1 * p.val = 8000 * t.val + p.val; omega
    | ⟨1, _⟩ => show win0_2.index t (1 : Fin 2) * 64 + 1 * q.val = q.val; omega
  rw [hemb]
  refine block_rows (V m c main_arg0) (V m c main_arg2) (iblk m c 0 t) (iblk m c 1 t) t.val ht ?_ ?_ p q
  · intro p s
    show V m c main_arg0 (((cfg0.win 0).blk t).view.emb (ix2 p s))
      = V m c main_arg0 (ix2 (⟨8000 * t.val + p.val, by omega⟩ : Fin 80000) s)
    refine congrArg (V m c main_arg0) ?_
    funext a; apply Fin.ext
    match a with
    | ⟨0, _⟩ => show win0_0.index t (0 : Fin 2) * 8000 + 1 * p.val = 8000 * t.val + p.val; omega
    | ⟨1, _⟩ => show win0_0.index t (1 : Fin 2) * 64 + 1 * s.val = s.val; omega
  · funext y
    show V m c main_arg2 (((cfg0.win 1).blk t).view.emb y) = V m c main_arg2 y
    refine congrArg (V m c main_arg2) ?_
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega

/-- An index of the result array is in point t's block iff each coordinate is in the block's range on its axis. -/
theorem mem_block (t : Fin cfg0.N) (i : S80000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v27).slice (win0_2.rect t)).set ↔ _
  rw [View.set_slice_whole, Rect.mem_set_unit]
  exact Iff.rfl

/-- The ten blocks tile the array: row r is in block r / 8000, which is written back. -/
theorem cover (i : S80000x64.Idx) :
    ∃ t : Fin cfg0.N, (cfg0.win 2).flush t = true ∧ i ∈ ((cfg0.win 2).blk t).view.set := by
  have hi0 : (i 0).val < 80000 := idx2_lt0 i
  have hi1 : (i 1).val < 64 := idx2_lt1 i
  have hk : (i 0).val / 8000 < cfg0.N := by rw [show cfg0.N = 10 from N_0]; omega
  refine ⟨⟨(i 0).val / 8000, hk⟩, flush0_2 _, ?_⟩
  obtain ⟨-, -, -, -, e4, e5⟩ := index_facts ⟨(i 0).val / 8000, hk⟩
  have e4' : win0_2.index ⟨(i 0).val / 8000, hk⟩ (0 : Fin 2) = (i 0).val / 8000 := e4
  rw [mem_block]
  intro a
  match a with
  | ⟨0, _⟩ =>
    show win0_2.index ⟨(i 0).val / 8000, hk⟩ (0 : Fin 2) * 8000 ≤ (i 0).val
      ∧ (i 0).val < win0_2.index ⟨(i 0).val / 8000, hk⟩ (0 : Fin 2) * 8000 + 8000
    omega
  | ⟨1, _⟩ =>
    show win0_2.index ⟨(i 0).val / 8000, hk⟩ (1 : Fin 2) * 64 ≤ (i 1).val
      ∧ (i 1).val < win0_2.index ⟨(i 0).val / 8000, hk⟩ (1 : Fin 2) * 64 + 64
    omega

/-- THE RESULT ARRAY after the region: the product of the argument arrays as launched. -/
theorem result (c : Dev nD) :
    (dats m 0 c).arrAt 2 cfg0.N
      = mm (m ((c : Thread nD τ).loc main_arg0)) (m ((c : Thread nD τ).loc main_arg2)) := by
  have h := (dats m 0 c).arrAt_eq_of_cover 2 (mm (V m c main_arg0) (V m c main_arg2))
    (fun t _ => flushed_eq m c t) cover
  rw [h, V_main_arg0 m c, V_main_arg2 m c]

end Cert.KernelIdeal.Product

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibSquare.lean ====
/-
  The square of a magnitude is the square.

  On the extended reals the magnitude of d is max d (-d), and the power x ^ y is defined case by case: on two reals it is
  the real power; an infinite base to a positive exponent is +∞.  With the exponent the real number 2 the power of the
  magnitude is therefore the product of d with itself, for EVERY extended real d:
    * d real:   |d| ^ 2 = |d|² = d²  in the reals;
    * d = +∞:   the magnitude is +∞, (+∞) ^ 2 = +∞ = (+∞)·(+∞);
    * d = -∞:   the magnitude is +∞ again, and (-∞)·(-∞) = +∞.
  No finiteness is needed.  Lifted entry by entry, an array's magnitude raised to a broadcast constant 2.0 is the array
  times itself, whatever the shape.
-/
import Idealize.ShloMosaic.PureOps.Ideal
import Idealize.ShloMosaic.PureOps.Vector
import proofs.«181222_j51539607552123_2_alg».proof.Proof.LibConsts

noncomputable section

namespace Cert.LibSquare

open Idealize.ShloMosaic

/-- |d| ^ 2 = d · d on the extended reals. -/
theorem pow_abs_two (d : EReal) : Ideal.pow (max d (-d)) ((2 : ℝ) : EReal) = d * d := by
  induction d using EReal.rec with
  | bot =>
    rw [EReal.neg_bot, max_eq_right bot_le, Ideal.pow_top, if_pos (by exact_mod_cast (by norm_num : (0 : ℝ) < 2)),
      EReal.bot_mul_bot]
  | coe r =>
    rw [← EReal.coe_neg, ← EReal.coe_strictMono.monotone.map_max, Ideal.pow_coe_coe, ← EReal.coe_mul]
    congr 1
    show (max r (-r)) ^ (2 : ℝ) = r * r
    rw [Real.rpow_two, ← abs_eq_max_neg, sq_abs, pow_two]
  | top =>
    rw [EReal.neg_top, max_eq_left bot_le, Ideal.pow_top, if_pos (by exact_mod_cast (by norm_num : (0 : ℝ) < 2)),
      EReal.top_mul_top]

/-- An array's magnitude to the power of a broadcast rank-0 constant 2.0 is the array times itself. -/
theorem powf_absf_two {s s0 : Shape} (dims : Fin s0.rank → Fin s.rank) (hb : s0.BroadcastsInDim s dims)
    (d : FVec Ideal s .f32) :
    Host.powf (Host.absf d) (broadcastInDim s dims hb (constant (F := Ideal) s0 .f32 0x40000000#32)) = mulf d d := by
  funext i
  show Ideal.pow (max (d i) (-(d i))) (Ideal.ofBits .f32 0x40000000#32) = d i * d i
  rw [Cert.Consts.ofBits_two]
  exact pow_abs_two (d i)

end Cert.LibSquare

end
-- ==== Proof.LibHostCut.lean ====
/-
  Cutting a straight line of host operations, and comparing two lines without ever comparing two large terms that differ.

  The contents of the buffers after a line of operations are a fold over the line, so a line run as its first n
  operations and then the rest is the line run whole (`after_append`, `after_split`).  Cutting two programs' lines at
  the same joints — after a value that later operations read several times, or right after a concatenation, whose pieces
  a rewriting pass does not enter — lets each stretch be read from a state in which that value is ONE buffer, so no
  stretch's term repeats it.

  To show a = b for two long terms that are equal only after some rewriting, it is enough to show that a is whatever b is:
  for every y, b = y → a = y (`via_right`).  While the two sides are being brought to one spelling each of them stands
  in an equation with the variable y only, never with the other, and they are matched once, at the end, when they are
  the same term.  (An equation between two large terms that still differ invites a check of their definitional equality,
  and refuting that can mean unfolding a fold over every element of a full-size array.)
-/
import Idealize.ShloMosaic.Lib.StableHlo.Run

namespace Cert.LibHostCut

open Idealize.ShloMosaic Idealize.ShloMosaic.StableHlo

/-- To prove a = b it is enough to show that a is whatever b is: b then only ever meets a variable. -/
theorem via_right {α : Sort _} {a b : α} (h : ∀ y, b = y → a = y) : a = b := h b rfl

/-- Two lines of host operations run one after the other are their concatenation run as one. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => rw [List.cons_append, after_cons, after_cons, ih]

/-- A line run as its first n operations and then the rest. -/
theorem after_split {τ : Topo} {sig : RefSig} {Val : EltTy → Type} (n : ℕ) (l : List (HloOp τ sig Val))
    (V : Valuation τ sig Val) : after l V = after (List.drop n l) (after (List.take n l) V) := by
  rw [← after_append, List.take_append_drop]

end Cert.LibHostCut
-- ==== Proof.LibHostBoth.lean ====
/-
  Reading one buffer after a straight line of host operations.

  The contents of the buffers after a line of operations are a fold over the line: each operation replaces its
  result buffer by its function's value of its operand buffers and leaves every other buffer alone. So what ONE buffer
  holds after a literal line is a computation: walk the line backwards from that buffer, at each operation either
  taking its function's value (the buffer is its result) or passing through it (it is not), and do the same for the
  operands met on the way. `host_read` does this for a goal that mentions `StableHlo.after ops V (Proc.devRef .tc b)`
  for literal lists `ops` and literal references `b`, on both sides of an equation at once: one rewriting pass that
  visits every shared operand once, then a loop over what the pass cannot reach — the operands of a concatenation sit
  inside a list of pairs (shape, contents), under which the pass does not rewrite —, then the removal of the identity
  casts with which an outlined function's operations carry values to and from their buffers' own types. What is left
  is an equation between terms of the pure operations over `V` at the line's own inputs. Stated for two programs at
  once — `after opsR WR (Proc.devRef .tc bR) = after opsK WK (Proc.devRef .tc bK)` over two signatures, with hypotheses
  that `WR` and `WK` agree at the lines' inputs — the goal after `host_read` closes by rewriting with those
  hypotheses and `rfl`, when the two lines are the same operations. (On a line made only of an outlined function's
  operations the last of the three steps, removing the casts, can cost far more than the rest: there the first step
  alone, `after_results_simp`, leaves both sides with the same casts in the same places, which is enough.)
  `cut_list` evaluates the prefixes and suffixes (`List.take`, `List.drop`) of a literal list.
-/
import Idealize.ShloMosaic.Lib.StableHlo.Run

namespace Cert.LibHostBoth

open Idealize.ShloMosaic Idealize.ShloMosaic.StableHlo

/-- The loop: one operation's result at one reference per step, anywhere in the goal. -/
macro "results_loop" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The pass, the loop, the casts. -/
macro "host_read" : tactic =>
  `(tactic| ((try after_results_simp); results_loop;
             (try simp only [StableHlo.TRef.toBuf, StableHlo.TRef.ofBuf, cast_eq])))

/-- Prefixes and suffixes of a literal list. -/
macro "cut_list" : tactic =>
  `(tactic| simp only [List.take_succ_cons, List.take_zero, List.drop_succ_cons, List.drop_zero, List.take_nil, List.drop_nil])

end Cert.LibHostBoth
-- ==== Proof.BridgeTail.lean ====
/-
  The host lines after the product, run from buffers that agree.

  After its kernel region the kernel program runs 59 host operations; after its matrix product the reference runs 62.
  They are the same operations on the same buffers in the same order, except that on the edge differences
  d = H[src] - H[dst] the reference takes |d|, a constant 2.0, its broadcast and the power |d| ^ 2.0 where the kernel
  program takes the product d · d.  Seven buffers written earlier are read: the product, the two extended endpoint lists,
  the edge weights, the two endpoint lists, the bias.

  The lines are read in two stretches, cut after the layer's output H = relu(aggregate + b) (22 operations):
    * up to H, both read the product, the extended endpoint lists, the weights and the bias, by the same operations;
    * from H on, both read H and the two endpoint lists; H is read twice per edge difference d, and d twice by the
      kernel program's d · d, so H is carried across the cut as ONE buffer.
  From any two states that agree on the seven buffers the two lines therefore end with the same result, because
  |d| ^ 2 = d · d on the extended reals.  Each stretch's result is read as a term of the pure operations over its inputs;
  two such terms are never compared while they still differ: the reference's is named y first (an equation with a
  variable), both are brought to one spelling, and only then matched.
-/
import proofs.«181222_j51539607552123_2_alg».proof.Proof.Gen.KernelIdeal.Launch
import proofs.«181222_j51539607552123_2_alg».proof.Proof.Gen.ReferenceIdeal.Run
import proofs.«181222_j51539607552123_2_alg».proof.Proof.LibSquare
import proofs.«181222_j51539607552123_2_alg».proof.Proof.LibHostCut
import proofs.«181222_j51539607552123_2_alg».proof.Proof.LibHostBoth

set_option maxRecDepth 16384

noncomputable section

namespace Cert.Bridge

open Idealize.ShloMosaic Idealize.ShloMosaic.TcCoe Idealize.SL.Sem Idealize.ShloMosaic.StableHlo
open Cert.LibHostBoth Cert.LibHostCut

/-- Up to the layer's output H: the same 22 operations on the product, the extended endpoint lists, the weights and the bias. -/
theorem tail_to_H (WK : Valuation Cert.KernelIdeal.τ Cert.KernelIdeal.sig (Elt Ideal)) (WR : Valuation Cert.ReferenceIdeal.τ Cert.ReferenceIdeal.sig (Elt Ideal))
    (h27 : (WK (Proc.devRef .tc Cert.KernelIdeal.main_v27) : (⟨Cert.KernelIdeal.S80000x64, .f32⟩ : BufTy).Contents (Elt Ideal)) = WR (Proc.devRef .tc Cert.ReferenceIdeal.main_v27))
    (h5 : (WK (Proc.devRef .tc Cert.KernelIdeal.main_v5) : (⟨Cert.KernelIdeal.S1360000, .i32⟩ : BufTy).Contents (Elt Ideal)) = WR (Proc.devRef .tc Cert.ReferenceIdeal.main_v5))
    (h6 : (WK (Proc.devRef .tc Cert.KernelIdeal.main_v6) : (⟨Cert.KernelIdeal.S1360000, .i32⟩ : BufTy).Contents (Elt Ideal)) = WR (Proc.devRef .tc Cert.ReferenceIdeal.main_v6))
    (h26 : (WK (Proc.devRef .tc Cert.KernelIdeal.main_v26) : (⟨Cert.KernelIdeal.S1360000, .f32⟩ : BufTy).Contents (Elt Ideal)) = WR (Proc.devRef .tc Cert.ReferenceIdeal.main_v26))
    (hb : (WK (Proc.devRef .tc Cert.KernelIdeal.main_arg3) : (⟨Cert.KernelIdeal.S64, .f32⟩ : BufTy).Contents (Elt Ideal)) = WR (Proc.devRef .tc Cert.ReferenceIdeal.main_arg3)) :
    (after (List.take 22 (List.flatten [Cert.KernelIdeal.Gen.hostOps1, Cert.KernelIdeal.Gen.hostOps1_1, Cert.KernelIdeal.Gen.hostOps1_2])) WK (Proc.devRef .tc Cert.KernelIdeal.main_v44) : (⟨Cert.KernelIdeal.S80000x64, .f32⟩ : BufTy).Contents (Elt Ideal)) = after (List.take 22 (List.drop 27 (List.drop 7 Cert.ReferenceIdeal.Value.ops))) WR (Proc.devRef .tc Cert.ReferenceIdeal.main_v44) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  rw [h27, h5, h6, h26, hb]
  exact fun hy => hy

theorem tail_keepK_v1 (WK : Valuation Cert.KernelIdeal.τ Cert.KernelIdeal.sig (Elt Ideal)) : after (List.take 22 (List.flatten [Cert.KernelIdeal.Gen.hostOps1, Cert.KernelIdeal.Gen.hostOps1_1, Cert.KernelIdeal.Gen.hostOps1_2])) WK (Proc.devRef .tc Cert.KernelIdeal.main_v1) = WK (Proc.devRef .tc Cert.KernelIdeal.main_v1) := by
  simp only [Cert.KernelIdeal.Gen.hostOps0, Cert.KernelIdeal.Gen.hostOps1, Cert.KernelIdeal.Gen.hostOps1_1, Cert.KernelIdeal.Gen.hostOps1_2, List.flatten_cons, List.flatten_nil, List.append_nil, List.cons_append, List.nil_append]
  try cut_list
  after_results_simp

theorem tail_keepK_v3 (WK : Valuation Cert.KernelIdeal.τ Cert.KernelIdeal.sig (Elt Ideal)) : after (List.take 22 (List.flatten [Cert.KernelIdeal.Gen.hostOps1, Cert.KernelIdeal.Gen.hostOps1_1, Cert.KernelIdeal.Gen.hostOps1_2])) WK (Proc.devRef .tc Cert.KernelIdeal.main_v3) = WK (Proc.devRef .tc Cert.KernelIdeal.main_v3) := by
  simp only [Cert.KernelIdeal.Gen.hostOps0, Cert.KernelIdeal.Gen.hostOps1, Cert.KernelIdeal.Gen.hostOps1_1, Cert.KernelIdeal.Gen.hostOps1_2, List.flatten_cons, List.flatten_nil, List.append_nil, List.cons_append, List.nil_append]
  try cut_list
  after_results_simp

theorem tail_keepR_v1 (WR : Valuation Cert.ReferenceIdeal.τ Cert.ReferenceIdeal.sig (Elt Ideal)) : after (List.take 22 (List.drop 27 (List.drop 7 Cert.ReferenceIdeal.Value.ops))) WR (Proc.devRef .tc Cert.ReferenceIdeal.main_v1) = WR (Proc.devRef .tc Cert.ReferenceIdeal.main_v1) := by
  simp only [Cert.ReferenceIdeal.Value.ops]
  cut_list
  after_results_simp

theorem tail_keepR_v3 (WR : Valuation Cert.ReferenceIdeal.τ Cert.ReferenceIdeal.sig (Elt Ideal)) : after (List.take 22 (List.drop 27 (List.drop 7 Cert.ReferenceIdeal.Value.ops))) WR (Proc.devRef .tc Cert.ReferenceIdeal.main_v3) = WR (Proc.devRef .tc Cert.ReferenceIdeal.main_v3) := by
  simp only [Cert.ReferenceIdeal.Value.ops]
  cut_list
  after_results_simp

/-- From H on: the edge differences, their squares — the reference's |d| ^ 2.0 is the kernel program's d · d —, the sums per edge, the scatter-mean over the source nodes and the tanh. -/
theorem tail_from_H (WK : Valuation Cert.KernelIdeal.τ Cert.KernelIdeal.sig (Elt Ideal)) (WR : Valuation Cert.ReferenceIdeal.τ Cert.ReferenceIdeal.sig (Elt Ideal))
    (h44 : (WK (Proc.devRef .tc Cert.KernelIdeal.main_v44) : (⟨Cert.KernelIdeal.S80000x64, .f32⟩ : BufTy).Contents (Elt Ideal)) = WR (Proc.devRef .tc Cert.ReferenceIdeal.main_v44))
    (h1 : (WK (Proc.devRef .tc Cert.KernelIdeal.main_v1) : (⟨Cert.KernelIdeal.S1280000, .i32⟩ : BufTy).Contents (Elt Ideal)) = WR (Proc.devRef .tc Cert.ReferenceIdeal.main_v1))
    (h3 : (WK (Proc.devRef .tc Cert.KernelIdeal.main_v3) : (⟨Cert.KernelIdeal.S1280000, .i32⟩ : BufTy).Contents (Elt Ideal)) = WR (Proc.devRef .tc Cert.ReferenceIdeal.main_v3)) :
    (after (List.drop 22 (List.flatten [Cert.KernelIdeal.Gen.hostOps1, Cert.KernelIdeal.Gen.hostOps1_1, Cert.KernelIdeal.Gen.hostOps1_2])) WK (Proc.devRef .tc Cert.KernelIdeal.main_v72) : (⟨Cert.KernelIdeal.S80000, .f32⟩ : BufTy).Contents (Elt Ideal)) = after (List.drop 22 (List.drop 27 (List.drop 7 Cert.ReferenceIdeal.Value.ops))) WR (Proc.devRef .tc Cert.ReferenceIdeal.main_v74) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  rw [Cert.LibSquare.powf_absf_two]
  rw [h44, h1, h3]
  exact fun hy => hy

/-- From buffers that agree on the seven read across the cut, the kernel program's lines after its region and the
    reference's lines after its product end with the same result. -/
theorem tails_agree (WK : Valuation Cert.KernelIdeal.τ Cert.KernelIdeal.sig (Elt Ideal)) (WR : Valuation Cert.ReferenceIdeal.τ Cert.ReferenceIdeal.sig (Elt Ideal))
    (h27 : (WK (Proc.devRef .tc Cert.KernelIdeal.main_v27) : (⟨Cert.KernelIdeal.S80000x64, .f32⟩ : BufTy).Contents (Elt Ideal)) = WR (Proc.devRef .tc Cert.ReferenceIdeal.main_v27))
    (h5 : (WK (Proc.devRef .tc Cert.KernelIdeal.main_v5) : (⟨Cert.KernelIdeal.S1360000, .i32⟩ : BufTy).Contents (Elt Ideal)) = WR (Proc.devRef .tc Cert.ReferenceIdeal.main_v5))
    (h6 : (WK (Proc.devRef .tc Cert.KernelIdeal.main_v6) : (⟨Cert.KernelIdeal.S1360000, .i32⟩ : BufTy).Contents (Elt Ideal)) = WR (Proc.devRef .tc Cert.ReferenceIdeal.main_v6))
    (h26 : (WK (Proc.devRef .tc Cert.KernelIdeal.main_v26) : (⟨Cert.KernelIdeal.S1360000, .f32⟩ : BufTy).Contents (Elt Ideal)) = WR (Proc.devRef .tc Cert.ReferenceIdeal.main_v26))
    (h1 : (WK (Proc.devRef .tc Cert.KernelIdeal.main_v1) : (⟨Cert.KernelIdeal.S1280000, .i32⟩ : BufTy).Contents (Elt Ideal)) = WR (Proc.devRef .tc Cert.ReferenceIdeal.main_v1))
    (h3 : (WK (Proc.devRef .tc Cert.KernelIdeal.main_v3) : (⟨Cert.KernelIdeal.S1280000, .i32⟩ : BufTy).Contents (Elt Ideal)) = WR (Proc.devRef .tc Cert.ReferenceIdeal.main_v3))
    (hb : (WK (Proc.devRef .tc Cert.KernelIdeal.main_arg3) : (⟨Cert.KernelIdeal.S64, .f32⟩ : BufTy).Contents (Elt Ideal)) = WR (Proc.devRef .tc Cert.ReferenceIdeal.main_arg3)) :
    (after (List.flatten [Cert.KernelIdeal.Gen.hostOps1, Cert.KernelIdeal.Gen.hostOps1_1, Cert.KernelIdeal.Gen.hostOps1_2]) WK (Proc.devRef .tc Cert.KernelIdeal.main_v72) : (⟨Cert.KernelIdeal.S80000, .f32⟩ : BufTy).Contents (Elt Ideal)) = after (List.drop 27 (List.drop 7 Cert.ReferenceIdeal.Value.ops)) WR (Proc.devRef .tc Cert.ReferenceIdeal.main_v74) := by
  rw [after_split 22 (List.flatten [Cert.KernelIdeal.Gen.hostOps1, Cert.KernelIdeal.Gen.hostOps1_1, Cert.KernelIdeal.Gen.hostOps1_2]) WK, after_split 22 (List.drop 27 (List.drop 7 Cert.ReferenceIdeal.Value.ops)) WR]
  exact tail_from_H _ _ (tail_to_H WK WR h27 h5 h6 h26 hb)
    ((tail_keepK_v1 WK).trans (h1.trans (tail_keepR_v1 WR).symm))
    ((tail_keepK_v3 WK).trans (h3.trans (tail_keepR_v3 WR).symm))

end Cert.Bridge

end
-- ==== Proof.BridgeCut.lean ====
/-
  The seven buffers read across the cut hold the same contents in both programs.

  Cut the reference's line of 96 host operations after its 34th, the matrix product; the kernel program is cut where its
  host lines after the kernel region start.  Seven buffers written before the cut are read after it.
    * The two edge endpoint lists, their two extensions by the self loops, and the edge weights
      rsqrt(deg)[s] · rsqrt(deg)[d] are computed from the edge list alone, by the same 33 operations in both programs.
      They are read in two stretches: the first seven operations (the two rows of the edge list, the self loops, the two
      concatenations) give the four lists; the remaining ones read the extended lists as given and produce the weights.
    * The bias is an argument, written by no operation of either program.
    * The product X · W is, in the kernel program, what the region leaves in its result array — ten row blocks that tile
      X · W — and in the reference the host's contraction of the same two arguments: one matrix product.
-/
import proofs.«181222_j51539607552123_2_alg».proof.Proof.Product
import proofs.«181222_j51539607552123_2_alg».proof.Proof.BridgeTail
import proofs.«181222_j51539607552123_2_alg».proof.Proof.LibHostBoth
import proofs.«181222_j51539607552123_2_alg».proof.Proof.LibGcn
import proofs.«181222_j51539607552123_2_alg».proof.Proof.Gen.ReferenceIdeal.Run

set_option maxRecDepth 16384

noncomputable section

namespace Cert.Bridge

open Idealize.ShloMosaic Idealize.ShloMosaic.TcCoe Idealize.SL.Sem Idealize.ShloMosaic.StableHlo
open Cert.LibHostCut
open Cert.LibHostBoth Cert.Spec

/-! ## The lines before the cut, from any two states that agree on the edge list -/

/-- The source endpoints: row 0 of the edge list. -/
theorem first_v1 (WK : Valuation Cert.KernelIdeal.τ Cert.KernelIdeal.sig (Elt Ideal)) (WR : Valuation Cert.ReferenceIdeal.τ Cert.ReferenceIdeal.sig (Elt Ideal))
    (h1 : (WK (Proc.devRef .tc Cert.KernelIdeal.main_arg1) : (⟨Cert.KernelIdeal.S2x1280000, .i32⟩ : BufTy).Contents (Elt Ideal)) = WR (Proc.devRef .tc Cert.ReferenceIdeal.main_arg1)) :
    (after (List.take 7 (List.flatten [Cert.KernelIdeal.Gen.hostOps0])) WK (Proc.devRef .tc Cert.KernelIdeal.main_v1) : (⟨Cert.KernelIdeal.S1280000, .i32⟩ : BufTy).Contents (Elt Ideal)) = after (List.take 7 Cert.ReferenceIdeal.Value.ops) WR (Proc.devRef .tc Cert.ReferenceIdeal.main_v1) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  rw [h1]
  exact fun hy => hy

/-- The target endpoints: row 1 of the edge list. -/
theorem first_v3 (WK : Valuation Cert.KernelIdeal.τ Cert.KernelIdeal.sig (Elt Ideal)) (WR : Valuation Cert.ReferenceIdeal.τ Cert.ReferenceIdeal.sig (Elt Ideal))
    (h1 : (WK (Proc.devRef .tc Cert.KernelIdeal.main_arg1) : (⟨Cert.KernelIdeal.S2x1280000, .i32⟩ : BufTy).Contents (Elt Ideal)) = WR (Proc.devRef .tc Cert.ReferenceIdeal.main_arg1)) :
    (after (List.take 7 (List.flatten [Cert.KernelIdeal.Gen.hostOps0])) WK (Proc.devRef .tc Cert.KernelIdeal.main_v3) : (⟨Cert.KernelIdeal.S1280000, .i32⟩ : BufTy).Contents (Elt Ideal)) = after (List.take 7 Cert.ReferenceIdeal.Value.ops) WR (Proc.devRef .tc Cert.ReferenceIdeal.main_v3) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  rw [h1]
  exact fun hy => hy

/-- The source endpoints followed by the self loops 0 … n-1. -/
theorem first_v5 (WK : Valuation Cert.KernelIdeal.τ Cert.KernelIdeal.sig (Elt Ideal)) (WR : Valuation Cert.ReferenceIdeal.τ Cert.ReferenceIdeal.sig (Elt Ideal))
    (h1 : (WK (Proc.devRef .tc Cert.KernelIdeal.main_arg1) : (⟨Cert.KernelIdeal.S2x1280000, .i32⟩ : BufTy).Contents (Elt Ideal)) = WR (Proc.devRef .tc Cert.ReferenceIdeal.main_arg1)) :
    (after (List.take 7 (List.flatten [Cert.KernelIdeal.Gen.hostOps0])) WK (Proc.devRef .tc Cert.KernelIdeal.main_v5) : (⟨Cert.KernelIdeal.S1360000, .i32⟩ : BufTy).Contents (Elt Ideal)) = after (List.take 7 Cert.ReferenceIdeal.Value.ops) WR (Proc.devRef .tc Cert.ReferenceIdeal.main_v5) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  results_loop
  rw [h1]
  exact fun hy => hy

/-- The target endpoints followed by the self loops. -/
theorem first_v6 (WK : Valuation Cert.KernelIdeal.τ Cert.KernelIdeal.sig (Elt Ideal)) (WR : Valuation Cert.ReferenceIdeal.τ Cert.ReferenceIdeal.sig (Elt Ideal))
    (h1 : (WK (Proc.devRef .tc Cert.KernelIdeal.main_arg1) : (⟨Cert.KernelIdeal.S2x1280000, .i32⟩ : BufTy).Contents (Elt Ideal)) = WR (Proc.devRef .tc Cert.ReferenceIdeal.main_arg1)) :
    (after (List.take 7 (List.flatten [Cert.KernelIdeal.Gen.hostOps0])) WK (Proc.devRef .tc Cert.KernelIdeal.main_v6) : (⟨Cert.KernelIdeal.S1360000, .i32⟩ : BufTy).Contents (Elt Ideal)) = after (List.take 7 Cert.ReferenceIdeal.Value.ops) WR (Proc.devRef .tc Cert.ReferenceIdeal.main_v6) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  results_loop
  rw [h1]
  exact fun hy => hy

/-- The edge weights rsqrt(deg)[s] · rsqrt(deg)[d], deg the scatter-add of ones over the extended targets. -/
theorem then_v26 (WK : Valuation Cert.KernelIdeal.τ Cert.KernelIdeal.sig (Elt Ideal)) (WR : Valuation Cert.ReferenceIdeal.τ Cert.ReferenceIdeal.sig (Elt Ideal))
    (h5 : (WK (Proc.devRef .tc Cert.KernelIdeal.main_v5) : (⟨Cert.KernelIdeal.S1360000, .i32⟩ : BufTy).Contents (Elt Ideal)) = WR (Proc.devRef .tc Cert.ReferenceIdeal.main_v5))
    (h6 : (WK (Proc.devRef .tc Cert.KernelIdeal.main_v6) : (⟨Cert.KernelIdeal.S1360000, .i32⟩ : BufTy).Contents (Elt Ideal)) = WR (Proc.devRef .tc Cert.ReferenceIdeal.main_v6)) :
    (after (List.drop 7 (List.flatten [Cert.KernelIdeal.Gen.hostOps0])) WK (Proc.devRef .tc Cert.KernelIdeal.main_v26) : (⟨Cert.KernelIdeal.S1360000, .f32⟩ : BufTy).Contents (Elt Ideal)) = after (List.take 27 (List.drop 7 Cert.ReferenceIdeal.Value.ops)) WR (Proc.devRef .tc Cert.ReferenceIdeal.main_v26) := by
  refine via_right fun y => ?_
  simp only [Cert.KernelIdeal.Gen.hostOps0, Cert.KernelIdeal.Gen.hostOps1, Cert.KernelIdeal.Gen.hostOps1_1, Cert.KernelIdeal.Gen.hostOps1_2, Cert.ReferenceIdeal.Value.ops, List.flatten_cons, List.flatten_nil, List.append_nil, List.cons_append, List.nil_append]
  cut_list
  after_results_simp
  rw [h5, h6]
  exact fun hy => hy

theorem then_keepK_v1 (WK : Valuation Cert.KernelIdeal.τ Cert.KernelIdeal.sig (Elt Ideal)) : after (List.drop 7 (List.flatten [Cert.KernelIdeal.Gen.hostOps0])) WK (Proc.devRef .tc Cert.KernelIdeal.main_v1) = WK (Proc.devRef .tc Cert.KernelIdeal.main_v1) := by
  simp only [Cert.KernelIdeal.Gen.hostOps0, Cert.KernelIdeal.Gen.hostOps1, Cert.KernelIdeal.Gen.hostOps1_1, Cert.KernelIdeal.Gen.hostOps1_2, List.flatten_cons, List.flatten_nil, List.append_nil, List.cons_append, List.nil_append]
  try cut_list
  after_results_simp

theorem then_keepK_v3 (WK : Valuation Cert.KernelIdeal.τ Cert.KernelIdeal.sig (Elt Ideal)) : after (List.drop 7 (List.flatten [Cert.KernelIdeal.Gen.hostOps0])) WK (Proc.devRef .tc Cert.KernelIdeal.main_v3) = WK (Proc.devRef .tc Cert.KernelIdeal.main_v3) := by
  simp only [Cert.KernelIdeal.Gen.hostOps0, Cert.KernelIdeal.Gen.hostOps1, Cert.KernelIdeal.Gen.hostOps1_1, Cert.KernelIdeal.Gen.hostOps1_2, List.flatten_cons, List.flatten_nil, List.append_nil, List.cons_append, List.nil_append]
  try cut_list
  after_results_simp

theorem then_keepK_v5 (WK : Valuation Cert.KernelIdeal.τ Cert.KernelIdeal.sig (Elt Ideal)) : after (List.drop 7 (List.flatten [Cert.KernelIdeal.Gen.hostOps0])) WK (Proc.devRef .tc Cert.KernelIdeal.main_v5) = WK (Proc.devRef .tc Cert.KernelIdeal.main_v5) := by
  simp only [Cert.KernelIdeal.Gen.hostOps0, Cert.KernelIdeal.Gen.hostOps1, Cert.KernelIdeal.Gen.hostOps1_1, Cert.KernelIdeal.Gen.hostOps1_2, List.flatten_cons, List.flatten_nil, List.append_nil, List.cons_append, List.nil_append]
  try cut_list
  after_results_simp

theorem then_keepK_v6 (WK : Valuation Cert.KernelIdeal.τ Cert.KernelIdeal.sig (Elt Ideal)) : after (List.drop 7 (List.flatten [Cert.KernelIdeal.Gen.hostOps0])) WK (Proc.devRef .tc Cert.KernelIdeal.main_v6) = WK (Proc.devRef .tc Cert.KernelIdeal.main_v6) := by
  simp only [Cert.KernelIdeal.Gen.hostOps0, Cert.KernelIdeal.Gen.hostOps1, Cert.KernelIdeal.Gen.hostOps1_1, Cert.KernelIdeal.Gen.hostOps1_2, List.flatten_cons, List.flatten_nil, List.append_nil, List.cons_append, List.nil_append]
  try cut_list
  after_results_simp

theorem then_keepR_v1 (WR : Valuation Cert.ReferenceIdeal.τ Cert.ReferenceIdeal.sig (Elt Ideal)) : after (List.take 27 (List.drop 7 Cert.ReferenceIdeal.Value.ops)) WR (Proc.devRef .tc Cert.ReferenceIdeal.main_v1) = WR (Proc.devRef .tc Cert.ReferenceIdeal.main_v1) := by
  simp only [Cert.ReferenceIdeal.Value.ops]
  cut_list
  after_results_simp

theorem then_keepR_v3 (WR : Valuation Cert.ReferenceIdeal.τ Cert.ReferenceIdeal.sig (Elt Ideal)) : after (List.take 27 (List.drop 7 Cert.ReferenceIdeal.Value.ops)) WR (Proc.devRef .tc Cert.ReferenceIdeal.main_v3) = WR (Proc.devRef .tc Cert.ReferenceIdeal.main_v3) := by
  simp only [Cert.ReferenceIdeal.Value.ops]
  cut_list
  after_results_simp

theorem then_keepR_v5 (WR : Valuation Cert.ReferenceIdeal.τ Cert.ReferenceIdeal.sig (Elt Ideal)) : after (List.take 27 (List.drop 7 Cert.ReferenceIdeal.Value.ops)) WR (Proc.devRef .tc Cert.ReferenceIdeal.main_v5) = WR (Proc.devRef .tc Cert.ReferenceIdeal.main_v5) := by
  simp only [Cert.ReferenceIdeal.Value.ops]
  cut_list
  after_results_simp

theorem then_keepR_v6 (WR : Valuation Cert.ReferenceIdeal.τ Cert.ReferenceIdeal.sig (Elt Ideal)) : after (List.take 27 (List.drop 7 Cert.ReferenceIdeal.Value.ops)) WR (Proc.devRef .tc Cert.ReferenceIdeal.main_v6) = WR (Proc.devRef .tc Cert.ReferenceIdeal.main_v6) := by
  simp only [Cert.ReferenceIdeal.Value.ops]
  cut_list
  after_results_simp

theorem then_keepR_arg3 (WR : Valuation Cert.ReferenceIdeal.τ Cert.ReferenceIdeal.sig (Elt Ideal)) : after (List.take 27 (List.drop 7 Cert.ReferenceIdeal.Value.ops)) WR (Proc.devRef .tc Cert.ReferenceIdeal.main_arg3) = WR (Proc.devRef .tc Cert.ReferenceIdeal.main_arg3) := by
  simp only [Cert.ReferenceIdeal.Value.ops]
  cut_list
  after_results_simp

theorem first_keepR_arg0 (WR : Valuation Cert.ReferenceIdeal.τ Cert.ReferenceIdeal.sig (Elt Ideal)) : after (List.take 7 Cert.ReferenceIdeal.Value.ops) WR (Proc.devRef .tc Cert.ReferenceIdeal.main_arg0) = WR (Proc.devRef .tc Cert.ReferenceIdeal.main_arg0) := by
  simp only [Cert.ReferenceIdeal.Value.ops]
  cut_list
  after_results_simp

theorem first_keepR_arg2 (WR : Valuation Cert.ReferenceIdeal.τ Cert.ReferenceIdeal.sig (Elt Ideal)) : after (List.take 7 Cert.ReferenceIdeal.Value.ops) WR (Proc.devRef .tc Cert.ReferenceIdeal.main_arg2) = WR (Proc.devRef .tc Cert.ReferenceIdeal.main_arg2) := by
  simp only [Cert.ReferenceIdeal.Value.ops]
  cut_list
  after_results_simp

theorem first_keepR_arg3 (WR : Valuation Cert.ReferenceIdeal.τ Cert.ReferenceIdeal.sig (Elt Ideal)) : after (List.take 7 Cert.ReferenceIdeal.Value.ops) WR (Proc.devRef .tc Cert.ReferenceIdeal.main_arg3) = WR (Proc.devRef .tc Cert.ReferenceIdeal.main_arg3) := by
  simp only [Cert.ReferenceIdeal.Value.ops]
  cut_list
  after_results_simp

/-- The reference's 34th operation contracts X against W. -/
theorem ref_product (WR : Valuation Cert.ReferenceIdeal.τ Cert.ReferenceIdeal.sig (Elt Ideal)) :
    (after (List.take 27 (List.drop 7 Cert.ReferenceIdeal.Value.ops)) WR (Proc.devRef .tc Cert.ReferenceIdeal.main_v27) : (⟨Cert.ReferenceIdeal.S80000x64, .f32⟩ : BufTy).Contents (Elt Ideal))
      = Host.dotGeneral (F := Ideal) (φ₁ := .f32) (φ₂ := .f32) Cert.ReferenceIdeal.dot_S80000x64_S64x64_S80000x64_1_0_0_1_n_n none
          (WR (Proc.devRef .tc Cert.ReferenceIdeal.main_arg0) : (⟨Cert.ReferenceIdeal.S80000x64, .f32⟩ : BufTy).Contents (Elt Ideal)) (WR (Proc.devRef .tc Cert.ReferenceIdeal.main_arg2) : (⟨Cert.ReferenceIdeal.S64x64, .f32⟩ : BufTy).Contents (Elt Ideal)) := by
  simp only [Cert.ReferenceIdeal.Value.ops]
  cut_list
  after_results_simp

/-! ## The seven buffers -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel program's buffers when its host lines after the region start: as the lines before the region left
    them, the region's arrays as the region left them. -/
abbrev entryK (c : Dev Cert.KernelIdeal.nD) : Valuation Cert.KernelIdeal.τ Cert.KernelIdeal.sig (Elt Ideal) :=
  Pipeline.withArrays (Cert.KernelIdeal.cfgs 0).spec c (Cert.KernelIdeal.GenP.V0 m c) fun w => (Cert.KernelIdeal.GenP.dats m 0 c).arrAt w (Cert.KernelIdeal.cfgs 0).N

/-- The reference program's buffers after its first 34 operations (through the matrix product), run as 7 and then 27. -/
abbrev entryR (c : Dev Cert.ReferenceIdeal.nD) : Valuation Cert.ReferenceIdeal.τ Cert.ReferenceIdeal.sig (Elt Ideal) :=
  after (List.take 27 (List.drop 7 Cert.ReferenceIdeal.Value.ops)) (after (List.take 7 Cert.ReferenceIdeal.Value.ops) (fun b => m' (c, b)))

theorem entry_v1 (c : Dev Cert.KernelIdeal.nD) (h1 : m' (c, Proc.devRef .tc Cert.ReferenceIdeal.main_arg1) = m (c, Proc.devRef .tc Cert.KernelIdeal.main_arg1)) :
    (entryK m c (Proc.devRef .tc Cert.KernelIdeal.main_v1) : (⟨Cert.KernelIdeal.S1280000, .i32⟩ : BufTy).Contents (Elt Ideal)) = entryR m' c (Proc.devRef .tc Cert.ReferenceIdeal.main_v1) := by
  refine (Pipeline.withArrays_of_ne Cert.KernelIdeal.spec0 c (Cert.KernelIdeal.GenP.V0 m c) _ Cert.KernelIdeal.main_v1 (by decide)).trans ?_
  show after (List.flatten [Cert.KernelIdeal.Gen.hostOps0]) (fun b => m (c, b)) (Proc.devRef .tc Cert.KernelIdeal.main_v1) = after (List.take 27 (List.drop 7 Cert.ReferenceIdeal.Value.ops)) (after (List.take 7 Cert.ReferenceIdeal.Value.ops) (fun b => m' (c, b))) (Proc.devRef .tc Cert.ReferenceIdeal.main_v1)
  rw [after_split 7 (List.flatten [Cert.KernelIdeal.Gen.hostOps0])]
  exact (then_keepK_v1 _).trans ((first_v1 _ _ h1.symm).trans (then_keepR_v1 _).symm)

theorem entry_v3 (c : Dev Cert.KernelIdeal.nD) (h1 : m' (c, Proc.devRef .tc Cert.ReferenceIdeal.main_arg1) = m (c, Proc.devRef .tc Cert.KernelIdeal.main_arg1)) :
    (entryK m c (Proc.devRef .tc Cert.KernelIdeal.main_v3) : (⟨Cert.KernelIdeal.S1280000, .i32⟩ : BufTy).Contents (Elt Ideal)) = entryR m' c (Proc.devRef .tc Cert.ReferenceIdeal.main_v3) := by
  refine (Pipeline.withArrays_of_ne Cert.KernelIdeal.spec0 c (Cert.KernelIdeal.GenP.V0 m c) _ Cert.KernelIdeal.main_v3 (by decide)).trans ?_
  show after (List.flatten [Cert.KernelIdeal.Gen.hostOps0]) (fun b => m (c, b)) (Proc.devRef .tc Cert.KernelIdeal.main_v3) = after (List.take 27 (List.drop 7 Cert.ReferenceIdeal.Value.ops)) (after (List.take 7 Cert.ReferenceIdeal.Value.ops) (fun b => m' (c, b))) (Proc.devRef .tc Cert.ReferenceIdeal.main_v3)
  rw [after_split 7 (List.flatten [Cert.KernelIdeal.Gen.hostOps0])]
  exact (then_keepK_v3 _).trans ((first_v3 _ _ h1.symm).trans (then_keepR_v3 _).symm)

theorem entry_v5 (c : Dev Cert.KernelIdeal.nD) (h1 : m' (c, Proc.devRef .tc Cert.ReferenceIdeal.main_arg1) = m (c, Proc.devRef .tc Cert.KernelIdeal.main_arg1)) :
    (entryK m c (Proc.devRef .tc Cert.KernelIdeal.main_v5) : (⟨Cert.KernelIdeal.S1360000, .i32⟩ : BufTy).Contents (Elt Ideal)) = entryR m' c (Proc.devRef .tc Cert.ReferenceIdeal.main_v5) := by
  refine (Pipeline.withArrays_of_ne Cert.KernelIdeal.spec0 c (Cert.KernelIdeal.GenP.V0 m c) _ Cert.KernelIdeal.main_v5 (by decide)).trans ?_
  show after (List.flatten [Cert.KernelIdeal.Gen.hostOps0]) (fun b => m (c, b)) (Proc.devRef .tc Cert.KernelIdeal.main_v5) = after (List.take 27 (List.drop 7 Cert.ReferenceIdeal.Value.ops)) (after (List.take 7 Cert.ReferenceIdeal.Value.ops) (fun b => m' (c, b))) (Proc.devRef .tc Cert.ReferenceIdeal.main_v5)
  rw [after_split 7 (List.flatten [Cert.KernelIdeal.Gen.hostOps0])]
  exact (then_keepK_v5 _).trans ((first_v5 _ _ h1.symm).trans (then_keepR_v5 _).symm)

theorem entry_v6 (c : Dev Cert.KernelIdeal.nD) (h1 : m' (c, Proc.devRef .tc Cert.ReferenceIdeal.main_arg1) = m (c, Proc.devRef .tc Cert.KernelIdeal.main_arg1)) :
    (entryK m c (Proc.devRef .tc Cert.KernelIdeal.main_v6) : (⟨Cert.KernelIdeal.S1360000, .i32⟩ : BufTy).Contents (Elt Ideal)) = entryR m' c (Proc.devRef .tc Cert.ReferenceIdeal.main_v6) := by
  refine (Pipeline.withArrays_of_ne Cert.KernelIdeal.spec0 c (Cert.KernelIdeal.GenP.V0 m c) _ Cert.KernelIdeal.main_v6 (by decide)).trans ?_
  show after (List.flatten [Cert.KernelIdeal.Gen.hostOps0]) (fun b => m (c, b)) (Proc.devRef .tc Cert.KernelIdeal.main_v6) = after (List.take 27 (List.drop 7 Cert.ReferenceIdeal.Value.ops)) (after (List.take 7 Cert.ReferenceIdeal.Value.ops) (fun b => m' (c, b))) (Proc.devRef .tc Cert.ReferenceIdeal.main_v6)
  rw [after_split 7 (List.flatten [Cert.KernelIdeal.Gen.hostOps0])]
  exact (then_keepK_v6 _).trans ((first_v6 _ _ h1.symm).trans (then_keepR_v6 _).symm)

theorem entry_v26 (c : Dev Cert.KernelIdeal.nD) (h1 : m' (c, Proc.devRef .tc Cert.ReferenceIdeal.main_arg1) = m (c, Proc.devRef .tc Cert.KernelIdeal.main_arg1)) :
    (entryK m c (Proc.devRef .tc Cert.KernelIdeal.main_v26) : (⟨Cert.KernelIdeal.S1360000, .f32⟩ : BufTy).Contents (Elt Ideal)) = entryR m' c (Proc.devRef .tc Cert.ReferenceIdeal.main_v26) := by
  refine (Pipeline.withArrays_of_ne Cert.KernelIdeal.spec0 c (Cert.KernelIdeal.GenP.V0 m c) _ Cert.KernelIdeal.main_v26 (by decide)).trans ?_
  show after (List.flatten [Cert.KernelIdeal.Gen.hostOps0]) (fun b => m (c, b)) (Proc.devRef .tc Cert.KernelIdeal.main_v26) = after (List.take 27 (List.drop 7 Cert.ReferenceIdeal.Value.ops)) (after (List.take 7 Cert.ReferenceIdeal.Value.ops) (fun b => m' (c, b))) (Proc.devRef .tc Cert.ReferenceIdeal.main_v26)
  rw [after_split 7 (List.flatten [Cert.KernelIdeal.Gen.hostOps0])]
  exact then_v26 _ _ (first_v5 _ _ h1.symm) (first_v6 _ _ h1.symm)

/-- The bias is an argument: no host line of either program writes it. -/
theorem entry_arg3 (c : Dev Cert.KernelIdeal.nD) (h3 : m' (c, Proc.devRef .tc Cert.ReferenceIdeal.main_arg3) = m (c, Proc.devRef .tc Cert.KernelIdeal.main_arg3)) :
    (entryK m c (Proc.devRef .tc Cert.KernelIdeal.main_arg3) : (⟨Cert.KernelIdeal.S64, .f32⟩ : BufTy).Contents (Elt Ideal)) = entryR m' c (Proc.devRef .tc Cert.ReferenceIdeal.main_arg3) := by
  refine (Pipeline.withArrays_of_ne Cert.KernelIdeal.spec0 c (Cert.KernelIdeal.GenP.V0 m c) _ Cert.KernelIdeal.main_arg3 (by decide)).trans ?_
  refine (Cert.KernelIdeal.GenP.V_main_arg3 m c).trans ?_
  exact h3.symm.trans ((then_keepR_arg3 (after (List.take 7 Cert.ReferenceIdeal.Value.ops) (fun b => m' (c, b)))).trans
    (first_keepR_arg3 (fun b => m' (c, b)))).symm

/-- The product: what the region leaves in its result array is the host's contraction of the same arguments. -/
theorem entry_v27 (c : Dev Cert.KernelIdeal.nD) (h0 : m' (c, Proc.devRef .tc Cert.ReferenceIdeal.main_arg0) = m (c, Proc.devRef .tc Cert.KernelIdeal.main_arg0)) (h2 : m' (c, Proc.devRef .tc Cert.ReferenceIdeal.main_arg2) = m (c, Proc.devRef .tc Cert.KernelIdeal.main_arg2)) :
    (entryK m c (Proc.devRef .tc Cert.KernelIdeal.main_v27) : (⟨Cert.KernelIdeal.S80000x64, .f32⟩ : BufTy).Contents (Elt Ideal)) = entryR m' c (Proc.devRef .tc Cert.ReferenceIdeal.main_v27) := by
  have hK : (entryK m c (Proc.devRef .tc Cert.KernelIdeal.main_v27) : (⟨Cert.KernelIdeal.S80000x64, .f32⟩ : BufTy).Contents (Elt Ideal)) = mm (m (c, Proc.devRef .tc Cert.KernelIdeal.main_arg0)) (m (c, Proc.devRef .tc Cert.KernelIdeal.main_arg2)) :=
    (Pipeline.withArrays_arr Cert.KernelIdeal.spec0 Cert.KernelIdeal.Gen.launch0.win.arr_inj c _ _ 2).trans (Cert.KernelIdeal.Product.result m c)
  have hR : (entryR m' c (Proc.devRef .tc Cert.ReferenceIdeal.main_v27) : (⟨Cert.ReferenceIdeal.S80000x64, .f32⟩ : BufTy).Contents (Elt Ideal)) = mm (m' (c, Proc.devRef .tc Cert.ReferenceIdeal.main_arg0)) (m' (c, Proc.devRef .tc Cert.ReferenceIdeal.main_arg2)) := by
    refine (ref_product (after (List.take 7 Cert.ReferenceIdeal.Value.ops) (fun b => m' (c, b)))).trans ?_
    rw [first_keepR_arg0 (fun b => m' (c, b)), first_keepR_arg2 (fun b => m' (c, b))]
    exact Cert.LibGcn.dotGeneral_eq_mm Cert.ReferenceIdeal.dot_S80000x64_S64x64_S80000x64_1_0_0_1_n_n rfl none _ _
  rw [hK, hR, h0, h2]

end Cert.Bridge

end
-- ==== Proof.Bridge.lean ====
/-
  The two programs' results are equal.

  The reference's line of host operations is its first 34 operations followed by the rest.  The kernel program's result is
  its host lines after the region run from what the region and the earlier lines left.  The seven buffers read across
  the cut agree (Proof/BridgeCut.lean), and from agreeing buffers the two remainders end with one result
  (Proof/BridgeTail.lean).
-/
import proofs.«181222_j51539607552123_2_alg».proof.Proof.BridgeCut
import proofs.«181222_j51539607552123_2_alg».proof.Proof.BridgeTail

set_option maxRecDepth 16384

noncomputable section

namespace Cert.Bridge

open Idealize.ShloMosaic Idealize.ShloMosaic.TcCoe Idealize.SL.Sem Idealize.ShloMosaic.StableHlo
open Cert.LibHostCut

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- THE TWO RESULTS: the kernel program's, as its frame run states it, is the reference's line run on agreeing arguments. -/
theorem results_agree (c : Dev Cert.KernelIdeal.nD)
    (h0 : m' (c, Proc.devRef .tc Cert.ReferenceIdeal.main_arg0) = m (c, Proc.devRef .tc Cert.KernelIdeal.main_arg0)) (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2)) (h3 : m' (c, Proc.devRef .tc Cert.ReferenceIdeal.main_arg3) = m (c, Proc.devRef .tc Cert.KernelIdeal.main_arg3)) :
    (Pipeline.afterTail₀ Cert.KernelIdeal.cfgs (Cert.KernelIdeal.GenP.dats m) 0 (Cert.KernelIdeal.GenP.V0 m)
        [Cert.KernelIdeal.Gen.hostOps1, Cert.KernelIdeal.Gen.hostOps1_1, Cert.KernelIdeal.Gen.hostOps1_2] c Cert.KernelIdeal.main_v72 : (⟨Cert.KernelIdeal.S80000, .f32⟩ : BufTy).Contents (Elt Ideal))
      = after Cert.ReferenceIdeal.Value.ops (fun b => m' (c, b)) (Proc.devRef .tc Cert.ReferenceIdeal.main_v74) := by
  unfold Pipeline.afterTail₀
  rw [after_split 7 (Cert.ReferenceIdeal.Value.ops (F := Ideal)), after_split 27 (List.drop 7 (Cert.ReferenceIdeal.Value.ops (F := Ideal)))]
  exact tails_agree (entryK m c) (entryR m' c) (entry_v27 m m' c h0 h2) (entry_v5 m m' c h1) (entry_v6 m m' c h1)
    (entry_v26 m m' c h1) (entry_v1 m m' c h1) (entry_v3 m m' c h1) (entry_arg3 m m' c h3)

end Cert.Bridge

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.lean ====
/-
  The kernel program and its reference compute one function of (X, edge_index, W, b) on the extended reals.

  Both are a graph-convolution layer followed by an edge gate:
      s, d      the edge endpoints, each extended by the self loops 0 … n-1;
      deg       the in-degrees (a scatter-add of ones over d);      norm = rsqrt(deg)[s] · rsqrt(deg)[d];
      h         = X · W;
      H         = relu( scatter-add over d of  h[s] · norm  + b );
      diffs     = for each edge, the sum over the 64 features of  g(H[src] - H[dst]);
      result    = tanh( scatter-add of diffs over src  /  max(count over src, 1) ).
  They differ in two places only.
    * h.  The reference contracts X against W on the host.  The kernel program computes h in its one kernel region, ten
      blocks of 8000 rows, each block the product of its rows of X with W into a zero accumulator after a change of
      float format that is the identity on the extended reals.  A product's entry reads only its own row of the left
      factor, so the ten blocks are the ten row blocks of X · W, and they tile it (Proof/Product.lean).
    * g.  The reference takes g(d) = |d| ^ 2.0, the kernel program g(d) = d · d.  On the extended reals |d| ^ 2 = d · d
      for EVERY d — the reals by |d|² = d², and both infinities give +∞ on both sides — so no finiteness of H, and hence
      no use of the precondition, is needed (Proof/LibSquare.lean).
  Everything else is the same host operations in the same order on the same values (Proof/Bridge.lean).

  The three frames: each program terminates without a fault and leaves its arguments as they were — for the two kernel
  programs by their frame certificates, for the reference by its run.  The idealization rewrote no operation, so there is
  nothing to preserve.
-/
import proofs.«181222_j51539607552123_2_alg».proof.Defs
import proofs.«181222_j51539607552123_2_alg».proof.Proof.Gen.Kernel
import proofs.«181222_j51539607552123_2_alg».proof.Proof.Gen.KernelIdeal
import proofs.«181222_j51539607552123_2_alg».proof.Proof.Gen.ReferenceIdeal
import proofs.«181222_j51539607552123_2_alg».proof.Proof.Gen.Pre_finite_inputs
import proofs.«181222_j51539607552123_2_alg».proof.Proof.Gen.ReferenceIdeal.Run
import proofs.«181222_j51539607552123_2_alg».proof.Proof.KernelFrameP
import proofs.«181222_j51539607552123_2_alg».proof.Proof.KernelIdealFrameP
import proofs.«181222_j51539607552123_2_alg».proof.Proof.Bridge
import proofs.«181222_j51539607552123_2_alg».proof.Proof.LibHostKeeps
import Idealize.ShloMosaic.Adequacy
import Idealize.ShloMosaic.Init

noncomputable section

namespace Cert.Proof

open Idealize.ShloMosaic Idealize.ShloMosaic.TcCoe Idealize.SL.Sem Idealize.ShloMosaic.StableHlo
open Cert.LibHostKeeps

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel program's run with its result named: what the host lines after the region compute from the region's
    arrays and the buffers the earlier lines left; the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v72)
          = Pipeline.afterTail₀ Cert.KernelIdeal.cfgs (Cert.KernelIdeal.GenP.dats m) 0 (Cert.KernelIdeal.GenP.V0 m)
              [Cert.KernelIdeal.Gen.hostOps1, Cert.KernelIdeal.Gen.hostOps1_1, Cert.KernelIdeal.Gen.hostOps1_2] c Cert.KernelIdeal.main_v72
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨(h c).2 Cert.KernelIdeal.main_v72 (Pipeline.mem_restRefs_of Cert.KernelIdeal.main_v72 (by decide) (by decide)),
      ((h c).1 0).trans (((Cert.KernelIdeal.GenP.dats m 0 c).arrAt_in 0 rfl _).trans
        ((Cert.KernelIdeal.GenP.A_eq m c 0).trans (Cert.KernelIdeal.GenP.V_main_arg0 m c))),
      ((h c).2 Cert.KernelIdeal.main_arg1 (Pipeline.mem_restRefs_of Cert.KernelIdeal.main_arg1 (by decide) (by decide))).trans
        (Cert.KernelIdeal.GenP.W_main_arg1 m (Cert.KernelIdeal.GenP.dats m) c),
      ((h c).1 1).trans (((Cert.KernelIdeal.GenP.dats m 0 c).arrAt_in 1 rfl _).trans
        ((Cert.KernelIdeal.GenP.A_eq m c 1).trans (Cert.KernelIdeal.GenP.V_main_arg2 m c))),
      ((h c).2 Cert.KernelIdeal.main_arg3 (Pipeline.mem_restRefs_of Cert.KernelIdeal.main_arg3 (by decide) (by decide))).trans
        (Cert.KernelIdeal.GenP.W_main_arg3 m (Cert.KernelIdeal.GenP.dats m) c)⟩)
    (Cert.KernelIdeal.GenP.run_main m ρ)

/-- The reference's run with its result stated as its line of host operations applied to the launch contents; the
    arguments, which no operation writes, unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v74)
          = after Cert.ReferenceIdeal.Value.ops (fun b => m (c, b)) (Proc.devRef .tc Cert.ReferenceIdeal.main_v74)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c =>
    ⟨h c Cert.ReferenceIdeal.main_v74,
      (h c Cert.ReferenceIdeal.main_arg0).trans (by host_keeps Cert.ReferenceIdeal.Value.ops),
      (h c Cert.ReferenceIdeal.main_arg1).trans (by host_keeps Cert.ReferenceIdeal.Value.ops),
      (h c Cert.ReferenceIdeal.main_arg2).trans (by host_keeps Cert.ReferenceIdeal.Value.ops),
      (h c Cert.ReferenceIdeal.main_arg3).trans (by host_keeps Cert.ReferenceIdeal.Value.ops)⟩)
    (run_seq Cert.ReferenceIdeal.Value.scopedRefs_eq Cert.ReferenceIdeal.Value.scopedSems_eq Cert.ReferenceIdeal.defs
      Cert.ReferenceIdeal.main (fun _ => Cert.ReferenceIdeal.Value.ops) Cert.ReferenceIdeal.Value.main_eq
      (fun _ => Cert.ReferenceIdeal.Value.ops_sub) m ρ)

/-- From memories that agree on the arguments both programs end with one result array: the reference's line of host
    operations, run on the agreeing arguments, ends where the kernel program's region and host lines do. -/
theorem algebraic : Cert.algebraic_KernelIdeal_ReferenceIdeal := by
  intro m ρ m' ρ' _ hagree
  refine ⟨fun c => Pipeline.afterTail₀ Cert.KernelIdeal.cfgs (Cert.KernelIdeal.GenP.dats m) 0 (Cert.KernelIdeal.GenP.V0 m)
      [Cert.KernelIdeal.Gen.hostOps1, Cert.KernelIdeal.Gen.hostOps1_1, Cert.KernelIdeal.Gen.hostOps1_2] c Cert.KernelIdeal.main_v72,
    kernel_run m ρ, ?_⟩
  refine (θ_run Cert.ReferenceIdeal.defs _ _).mono (fun _ h c => ⟨(h c).1.trans ?_, (h c).2⟩)
    (reference_run m' ρ')
  exact (Cert.Bridge.results_agree m m' c (hagree c).1 (hagree c).2.1 (hagree c).2.2.1 (hagree c).2.2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
